-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_arg10 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x64 .f32) (main_arg9 : FVec F S64 .f32) (main_arg10 : FVec F S128x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S64x128 .f32) (main_arg3 : FVec F S128 .f32) (main_arg4 : FVec F S64x128 .f32) (main_arg5 : FVec F S128x128 .f32) (main_arg6 : FVec F S128 .f32) (main_arg7 : FVec F S128x128 .f32) (main_arg8 : FVec F S128x64 .f32) (main_arg9 : FVec F S64 .f32) (main_arg10 : FVec F S128x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x128 : Shape := ⟨2, ![1, 128]⟩
abbrev S100000x128 : Shape := ⟨2, ![100000, 128]⟩
abbrev S10000x64 : Shape := ⟨2, ![10000, 64]⟩
abbrev S10000x128 : Shape := ⟨2, ![10000, 128]⟩
abbrev S1600000x128 : Shape := ⟨2, ![1600000, 128]⟩
abbrev S1x64 : Shape := ⟨2, ![1, 64]⟩

abbrev nBuf : Space → Nat
  | .hbm => 66
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S1x128, .f32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S1x64, .f32⟩
  | .hbm, ⟨65, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_cst : Ref sig .tc := ⟨.hbm, 48, rfl⟩
abbrev main_call1_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S100000x128 : S_.BroadcastsInDim S100000x128 (![] : Fin 0 → Fin S100000x128.rank)
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x128_S10000x128_1_0_0_1_n_n_wf : DotDims.WF S10000x64 S64x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_cst : Ref sig .tc := ⟨.hbm, 34, rfl⟩
abbrev main_call0_v0 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_c_4 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run, with its result named.

  The program is three kernel launches among stretches of host operations. Its buffers' contents at each
  boundary form a chain from the launch memory: a stretch of host operations applies them in order; a kernel
  launch leaves each of its output arrays at what its grid points wrote back and everything else as it was. The
  last link of that chain is the contents at the return. Every weakly fair execution terminates without a fault
  in a state whose buffers hold exactly those contents; read at the result buffer that gives the result, read at
  an argument it gives the argument as launched.
-/
import proofs.«135042_j14328010899631_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents there, and the
    arguments as launched. -/
theorem run_out : θ_run defs (onTc (τ := τ) (main (F := F))) ⟨m, fun _ => 0, ρ⟩ (fun r => ∀ c : Dev nD,
      r.2.mem ((c.tc : Thread nD τ).loc main_v41) = W8 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v41 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.Net

end
-- ==== Proof.Spec.lean ====
/-
  The mathematics of one graph-convolution layer, stated once over whole arrays and free of either program.

  A layer takes the aggregated neighbour features A and the node features H (both R rows by K columns), two
  weight matrices Wrel and Wroot (K by N) and a bias row, and returns, at row r and column c,

      sum_k A[r,k] * Wrel[k,c]  +  sum_k H[r,k] * Wroot[k,c]  +  bias[c].

  One program adds the bias last, to the sum of the two products; the other adds it to the first product and
  the second product after that. Extended-real addition is commutative and associative with no side condition
  (the infinities included), so the two groupings are one function: `layerBiasMid_eq`. Nothing here needs the
  entries to be finite.

  The network is three such layers. Between them sit an activation and a neighbourhood aggregation that both
  programs compute by the same operations; they enter as parameters (`act`, `agg₁`, `agg₂`), so the statement
  never looks inside them.
-/
import Idealize.ShloMosaic.PureOps.Ideal
import Idealize.ShloMosaic.Lib.ValueIdx
import Idealize.ShloMosaic.Lib.ValueLayout

noncomputable section

namespace Cert.GraphConv

open Idealize.ShloMosaic Idealize.ShloMosaic.ValueIdx

/-- A matrix of extended reals with `r` rows and `c` columns. -/
abbrev Mat (r c : ℕ) : Type := (⟨2, ![r, c]⟩ : Shape).Idx → EReal

/-- A vector of extended reals of length `n`. -/
abbrev Row (n : ℕ) : Type := (⟨1, ![n]⟩ : Shape).Idx → EReal

/-- One layer with the bias given as a one-row matrix and added LAST:
    `(A·Wrel + H·Wroot) + bias`, entry by entry. -/
def layer {R K N : ℕ} (A H : Mat R K) (Wrel Wroot : Mat K N) (B : Mat 1 N) : Mat R N := fun i =>
  (∑ k : Fin K, A (ix2 (i 0) k) * Wrel (ix2 k (i 1)) + ∑ k : Fin K, H (ix2 (i 0) k) * Wroot (ix2 k (i 1)))
    + B (ix2 (0 : Fin 1) (i 1))

/-- One layer with the bias given as a vector and added IN THE MIDDLE:
    `(A·Wrel + bias) + H·Wroot`, entry by entry. -/
def layerBiasMid {R K N : ℕ} (A H : Mat R K) (Wrel Wroot : Mat K N) (b : Row N) : Mat R N := fun i =>
  (∑ k : Fin K, A (ix2 (i 0) k) * Wrel (ix2 k (i 1)) + b (ix1 (i 1)))
    + ∑ k : Fin K, H (ix2 (i 0) k) * Wroot (ix2 k (i 1))

/-- A vector as a one-row matrix. -/
def asRow {N : ℕ} (b : Row N) : Mat 1 N := fun i => b (ix1 (i 1))

/-- The two groupings of a layer agree: `(p + b) + q = (p + q) + b` in the extended reals, at every entry. -/
theorem layerBiasMid_eq {R K N : ℕ} (A H : Mat R K) (Wrel Wroot : Mat K N) (b : Row N) :
    layerBiasMid A H Wrel Wroot b = layer A H Wrel Wroot (asRow b) := by
  funext i
  unfold layerBiasMid layer asRow
  exact add_right_comm _ _ _

/-- Three layers, 64 → 128 → 128 → 64 features per node, over `R` nodes: each layer is fed the aggregation of its
    input beside the input itself; the first two are followed by the activation. -/
def net {R : ℕ} (agg₁ : Mat R 64 → Mat R 64) (agg₂ : Mat R 128 → Mat R 128) (act : Mat R 128 → Mat R 128)
    (x : Mat R 64) (W1rel : Mat 64 128) (b1 : Row 128) (W1root : Mat 64 128)
    (W2rel : Mat 128 128) (b2 : Row 128) (W2root : Mat 128 128)
    (W3rel : Mat 128 64) (b3 : Row 64) (W3root : Mat 128 64) : Mat R 64 :=
  let h1 := act (layer (agg₁ x) x W1rel W1root (asRow b1))
  let h2 := act (layer (agg₂ h1) h1 W2rel W2root (asRow b2))
  layer (agg₂ h2) h2 W3rel W3root (asRow b3)

end Cert.GraphConv

end
-- ==== Proof.HostFns.lean ====
/-
  The host functions of the idealized kernel program, named exactly as the program spells them, and the three
  layers' values as functions of the eleven argument arrays.

  Besides its three kernel launches the program runs, on the host, for each layer: the neighbourhood aggregation
  (gather the source node's features along every edge, negative node numbers wrapped, and add them up per
  destination node, starting from zeros), and, after the first two launches, the activation (the maximum with
  zero); it also reshapes each bias vector into a one-row matrix. The edge list's two rows are sliced out once.
  These functions are named here and never opened: both programs apply the same ones, so only their arguments
  are ever compared.
-/
import proofs.«135042_j14328010899631_1_alg».proof.KernelIdeal
import proofs.«135042_j14328010899631_1_alg».proof.Proof.Gen.KernelIdeal
import proofs.«135042_j14328010899631_1_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Net

open Cert.KernelIdeal Cert.KernelIdeal.Facts₀ Cert.KernelIdeal.Facts Cert.GraphConv
open Idealize.ShloMosaic Idealize.ShloMosaic.TcCoe Idealize.SL.Sem

/-! ## The host functions, as the program spells them -/

abbrev Edges : Type := (⟨S2x1600000, .i32⟩ : BufTy).Contents (Elt Ideal)
abbrev EdgeRow : Type := (⟨S1600000, .i32⟩ : BufTy).Contents (Elt Ideal)
abbrev Feat64 : Type := (⟨S100000x64, .f32⟩ : BufTy).Contents (Elt Ideal)
abbrev Feat128 : Type := (⟨S100000x128, .f32⟩ : BufTy).Contents (Elt Ideal)

/-- Row 0 of the edge list: each edge's source node. -/
def sourceRow (e : Edges) : EdgeRow :=
  shapeCast S1600000 (extractStridedSlice S1x1600000 ![0, 0] e slices_S2x1600000_S1x1600000_0_0) shapeCasts_S1x1600000_S1600000

/-- Row 1 of the edge list: each edge's destination node. -/
def destRow (e : Edges) : EdgeRow :=
  shapeCast S1600000 (extractStridedSlice S1x1600000 ![1, 0] e slices_S2x1600000_S1x1600000_1_0) shapeCasts_S1x1600000_S1600000

/-- The source nodes as a column of gather indices, a negative node number n replaced by n + 100000. -/
def sourceColumn (s : EdgeRow) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The destination nodes as a column of scatter indices. -/
def destColumn (d : EdgeRow) : (⟨S1600000x1, .i32⟩ : BufTy).Contents (Elt Ideal) :=
  broadcastInDim S1600000x1 ![0] bcast_S1600000_S1600000x1_0 d

/-- Neighbourhood aggregation of 64-feature rows: gather along the edges, add per destination. -/
def aggregate64 (s d : EdgeRow) (h : Feat64) : Feat64 :=
  Host.scatterAdd (F := Ideal) scatter_S100000x64_S1600000x1_S1600000x64_1_0_0_1
    (broadcastInDim S100000x64 ![] bcast_S_S100000x64 (constant (F := Ideal) S_ .f32 0x00000000#32))
    (destColumn d)
    (Host.gather gather_S100000x64_S1600000x1_S1600000x64_1_0_n_n_0_1_164 h (sourceColumn s))

/-- Neighbourhood aggregation of 128-feature rows. -/
def aggregate128 (s d : EdgeRow) (h : Feat128) : Feat128 :=
  Host.scatterAdd (F := Ideal) scatter_S100000x128_S1600000x1_S1600000x128_1_0_0_1
    (broadcastInDim S100000x128 ![] bcast_S_S100000x128 (constant (F := Ideal) S_ .f32 0x00000000#32))
    (destColumn d)
    (Host.gather gather_S100000x128_S1600000x1_S1600000x128_1_0_n_n_0_1_1128 h (sourceColumn s))

/-- The activation: the maximum with zero, entry by entry. -/
def activate (h : Feat128) : Feat128 :=
  maximumf h (broadcastInDim S100000x128 ![] bcast_S_S100000x128 (constant (F := Ideal) S_ .f32 0x00000000#32))

/-- A 128-vector reshaped to one row. -/
def biasRow128 (b : (⟨S128, .f32⟩ : BufTy).Contents (Elt Ideal)) : (⟨S1x128, .f32⟩ : BufTy).Contents (Elt Ideal) :=
  shapeCast S1x128 b shapeCasts_S128_S1x128

/-- A 64-vector reshaped to one row. -/
def biasRow64 (b : (⟨S64, .f32⟩ : BufTy).Contents (Elt Ideal)) : (⟨S1x64, .f32⟩ : BufTy).Contents (Elt Ideal) :=
  shapeCast S1x64 b shapeCasts_S64_S1x64

/-- A one-row reshape of a vector reads the vector: it is the vector as a one-row matrix. -/
theorem biasRow128_eq (b : (⟨S128, .f32⟩ : BufTy).Contents (Elt Ideal)) : biasRow128 b = asRow b := by
  funext i
  exact (congrArg (shapeCast S1x128 b shapeCasts_S128_S1x128) (ValueIdx.eq_ix2 i)).trans
    (ValueIdx.shapeCast_a_1a_apply b shapeCasts_S128_S1x128 (i 0) (i 1))
theorem biasRow64_eq (b : (⟨S64, .f32⟩ : BufTy).Contents (Elt Ideal)) : biasRow64 b = asRow b := by
  funext i
  exact (congrArg (shapeCast S1x64 b shapeCasts_S64_S1x64) (ValueIdx.eq_ix2 i)).trans
    (ValueIdx.shapeCast_a_1a_apply b shapeCasts_S64_S1x64 (i 0) (i 1))

/-! ## The three layers' values, as functions of the argument arrays -/

/-- The first layer's value. -/
def hidden1 (x : Feat64) (e : Edges) (W1rel : Mat 64 128) (b1 : Row 128) (W1root : Mat 64 128) : Mat 100000 128 :=
  layer (aggregate64 (sourceRow e) (destRow e) x) x W1rel W1root (biasRow128 b1)

/-- The second layer's value. -/
def hidden2 (x : Feat64) (e : Edges) (W1rel : Mat 64 128) (b1 : Row 128) (W1root : Mat 64 128)
    (W2rel : Mat 128 128) (b2 : Row 128) (W2root : Mat 128 128) : Mat 100000 128 :=
  layer (aggregate128 (sourceRow e) (destRow e) (activate (hidden1 x e W1rel b1 W1root))) (activate (hidden1 x e W1rel b1 W1root))
    W2rel W2root (biasRow128 b2)

/-- The third layer's value: what the program returns. -/
def output (x : Feat64) (e : Edges) (W1rel : Mat 64 128) (b1 : Row 128) (W1root : Mat 64 128)
    (W2rel : Mat 128 128) (b2 : Row 128) (W2root : Mat 128 128) (W3rel : Mat 128 64) (b3 : Row 64) (W3root : Mat 128 64) : Mat 100000 64 :=
  layer (aggregate128 (sourceRow e) (destRow e) (activate (hidden2 x e W1rel b1 W1root W2rel b2 W2root)))
    (activate (hidden2 x e W1rel b1 W1root W2rel b2 W2root)) W3rel W3root (biasRow64 b3)

end Cert.KernelIdeal.Net

end
-- ==== Proof.HostKeep.lean ====
/-
  What each stretch of host operations of the idealized kernel program writes, and therefore leaves alone.

  The buffers' contents at each boundary of the program form a chain from the launch memory (the generated
  frame's W0 … W8). A stretch of host operations changes only the buffers its operations write; a kernel launch
  changes only its output array. So a buffer outside those sets holds, at a later boundary, what it held at an
  earlier one. The lists of written buffers are read off the operations; membership is decided.
-/
import proofs.«135042_j14328010899631_1_alg».proof.Proof.Gen.KernelIdeal.Frame
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

/-! ## What each stretch of host operations writes, and so leaves alone -/

section Writes
variable {F : FTy → Type} [FloatOps F]

abbrev written0 : List (Ref sig .tc) := [main_v0, main_v1, main_v2, main_v3, main_c, main_v4, main_v5, main_c_0, main_v6, main_v7, main_v8, main_v9, main_v10, main_cst, main_v11, main_v12, main_v13, main_v14]
theorem writes0 : (hostOps0 : List (HloOp τ sig (Elt F))).Forall fun op => op.writes ⊆ (written0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written1 : List (Ref sig .tc) := [main_call0_cst, main_call0_v0, main_v16]
theorem writes1 : (hostOps1 : List (HloOp τ sig (Elt F))).Forall fun op => op.writes ⊆ (written1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written1' : List (Ref sig .tc) := [main_c_1, main_v17, main_v18, main_c_2, main_v19, main_v20, main_v21, main_v22, main_v23, main_cst_3, main_v24, main_v25, main_v26, main_v27]
theorem writes1' : (hostOps1_1 : List (HloOp τ sig (Elt F))).Forall fun op => op.writes ⊆ (written1'.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written2 : List (Ref sig .tc) := [main_call1_cst, main_call1_v0, main_v29]
theorem writes2 : (hostOps2 : List (HloOp τ sig (Elt F))).Forall fun op => op.writes ⊆ (written2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev written2' : List (Ref sig .tc) := [main_c_4, main_v30, main_v31, main_c_5, main_v32, main_v33, main_v34, main_v35, main_v36, main_cst_6, main_v37, main_v38, main_v39, main_v40]
theorem writes2' : (hostOps2_1 : List (HloOp τ sig (Elt F))).Forall fun op => op.writes ⊆ (written2'.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Writes

variable {F : FTy → Type} [FloatOps F]
variable (m : (ℓ : Loc nD τ sig) → Buf (Elt F) ℓ) (ρ : Dev nD → PrngReg)

theorem keep1 (c : Dev nD) (r : Ref sig .tc) (h : r ∉ written0) : W1 m ρ c (Proc.devRef .tc r) = m ((c : Thread nD τ).loc r) :=
  StableHlo.after_of_writes_sub hostOps0 _ writes0 h
theorem keep3 (c : Dev nD) (r : Ref sig .tc) (h : r ∉ written1) : W3 m ρ c (Proc.devRef .tc r) = W2 m ρ c (Proc.devRef .tc r) :=
  StableHlo.after_of_writes_sub hostOps1 _ writes1 h
theorem keep4 (c : Dev nD) (r : Ref sig .tc) (h : r ∉ written1') : W4 m ρ c (Proc.devRef .tc r) = W3 m ρ c (Proc.devRef .tc r) :=
  StableHlo.after_of_writes_sub hostOps1_1 _ writes1' h
theorem keep6 (c : Dev nD) (r : Ref sig .tc) (h : r ∉ written2) : W6 m ρ c (Proc.devRef .tc r) = W5 m ρ c (Proc.devRef .tc r) :=
  StableHlo.after_of_writes_sub hostOps2 _ writes2 h
theorem keep7 (c : Dev nD) (r : Ref sig .tc) (h : r ∉ written2') : W7 m ρ c (Proc.devRef .tc r) = W6 m ρ c (Proc.devRef .tc r) :=
  StableHlo.after_of_writes_sub hostOps2_1 _ writes2' h

/-- A buffer that the first two stretches after launch 0 and launch 0 itself leave alone holds at launch 1's
    stretch what it held at launch 0's entry. -/
theorem keep_1_to_3 (c : Dev nD) (r : Ref sig .tc) (h1 : r ∉ written1) (h0 : ∀ w, Pipeline.arrRef spec0 w ≠ r) :
    W3 m ρ c (Proc.devRef .tc r) = W1 m ρ c (Proc.devRef .tc r) :=
  (keep3 m ρ c r h1).trans (W2_of_ne m ρ c r h0)

/-- The same from launch 1's stretch to launch 2's. -/
theorem keep_3_to_6 (c : Dev nD) (r : Ref sig .tc) (h2 : r ∉ written2) (h1 : ∀ w, Pipeline.arrRef spec1 w ≠ r) (h1' : r ∉ written1') :
    W6 m ρ c (Proc.devRef .tc r) = W3 m ρ c (Proc.devRef .tc r) :=
  (keep6 m ρ c r h2).trans ((W5_of_ne m ρ c r h1).trans (keep4 m ρ c r h1'))

end Cert.KernelIdeal.Net

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.Layer2.lean ====
/-
  Kernel launch 2 of three: what its output array holds afterwards, as one function of its five input arrays.

  The launch walks 10 grid points. At point t it loads rows 10000·t … 10000·t + 9999 of the aggregated features and
  of the node features (blocks of 10000 × 128), both weight matrices whole (128 × 64) and the one bias row (1 × 64), and
  stores a 10000 × 64 block that is written back to the same rows of the output. The body computes, at row p and
  column q of the block,

      sum_k agg[p,k] * Wrel[k,q]  +  sum_k feat[p,k] * Wroot[k,q]  +  bias[0,q]

  (two matrix products into zero accumulators, their sum, and the bias row broadcast over the rows; the changes
  of float format before the products are the identity at the ideal values). A block's row p is row
  10000·t + p of the array, so the block is the restriction of the whole-array layer of Spec to those rows. The
  ten blocks tile the 100000 rows (row r lies in block r / 10000), hence the output array IS that layer of the
  input arrays as the launch found them.

  Everything is stated at a parameter V, the buffers' contents when the launch is entered.
-/
import proofs.«135042_j14328010899631_1_alg».proof.Proof.Gen.KernelIdeal.Frame
import proofs.«135042_j14328010899631_1_alg».proof.Proof.Spec
import proofs.«135042_j14328010899631_1_alg».proof.Proof.LibMatmulSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

/-! ## The products' dimension record: which coordinate of each operand index comes from where -/

/-- The record of both products of this launch's body. -/
abbrev dims := dot_S10000x128_S128x64_S10000x64_1_0_0_1_n_n

theorem lhs_row (i : S10000x64.Idx) (q : dims.contr.Idx) : (dims.lhsIdx i q 0).val = (i 0).val := by
  unfold DotDims.lhsIdx
  rw [dif_neg (show ¬(0 : Fin S10000x128.rank) ∈ dims.lhsBatch by decide), dif_pos (show (0 : Fin S10000x128.rank) ∈ dims.lhsNonContracting by decide)]
  rfl
theorem lhs_contr (i : S10000x64.Idx) (q : dims.contr.Idx) : (dims.lhsIdx i q 1).val = (q ⟨0, by decide⟩).val :=
  dims.lhsIdx_val_of_single rfl i q
theorem rhs_contr (i : S10000x64.Idx) (q : dims.contr.Idx) : (dims.rhsIdx i q 0).val = (q ⟨0, by decide⟩).val :=
  dims.rhsIdx_val_of_single rfl i q
theorem rhs_col (i : S10000x64.Idx) (q : dims.contr.Idx) : (dims.rhsIdx i q 1).val = (i 1).val := by
  unfold DotDims.rhsIdx
  rw [dif_neg (show ¬(1 : Fin S128x64.rank) ∈ dims.rhsBatch by decide), dif_pos (show (1 : Fin S128x64.rank) ∈ dims.rhsNonContracting by decide)]
  rfl

/-! ## The body's value at an entry of the block -/

/-- The stored value at row p, column q: the two sums over k and the bias row's entry. -/
theorem payload_entry (x0 x1 : Vec Ideal S10000x128 .f32) (x2 x3 : Vec Ideal S128x64 .f32) (x4 : Vec Ideal S1x64 .f32)
    (p : Fin 10000) (q : Fin 64) :
    k2_pay1 (F := Ideal) x0 x1 x2 x3 x4 (ix2 p q)
      = (∑ k : Fin 128, x0 (ix2 p k) * x2 (ix2 k q) + ∑ k : Fin 128, x1 (ix2 p k) * x3 (ix2 k q)) + x4 (ix2 (0 : Fin 1) q) := by
  unfold k2_pay1
  refine congrArg₂ (· + ·) (congrArg₂ (· + ·) ?_ ?_) ?_
  · refine (matmul_zero_sum dims none rfl rfl lhs_row lhs_contr rhs_contr rhs_col _ _ (ix2 p q)).trans ?_
    exact Finset.sum_congr rfl fun k _ => congrArg₂ (· * ·) (congrFun (shapeCast_self x0 _) _) rfl
  · refine (matmul_zero_sum dims none rfl rfl lhs_row lhs_contr rhs_contr rhs_col _ _ (ix2 p q)).trans ?_
    exact Finset.sum_congr rfl fun k _ => congrArg₂ (· * ·) (congrFun (shapeCast_self x1 _) _) rfl
  · exact (broadcastTo_1b_ab_apply _ _ p q).trans (congrFun (shapeCast_self x4 _) _)

/-- A block entry against the whole-array layer: if the block's operands at the entries the body reads are the
    arrays' at the corresponding entries, the stored value is the layer's. -/
theorem block_entry (A H : Mat 100000 128) (Wrel Wroot : Mat 128 64) (B : Mat 1 64)
    (x0 x1 : Vec Ideal S10000x128 .f32) (x2 x3 : Vec Ideal S128x64 .f32) (x4 : Vec Ideal S1x64 .f32)
    (y : S10000x64.Idx) (i : (⟨2, ![100000, 64]⟩ : Shape).Idx)
    (h0 : ∀ k : Fin 128, x0 (ix2 (y 0) k) = A (ix2 (i 0) k))
    (h1 : ∀ k : Fin 128, x1 (ix2 (y 0) k) = H (ix2 (i 0) k))
    (h2 : ∀ k : Fin 128, x2 (ix2 k (y 1)) = Wrel (ix2 k (i 1)))
    (h3 : ∀ k : Fin 128, x3 (ix2 k (y 1)) = Wroot (ix2 k (i 1)))
    (h4 : x4 (ix2 (0 : Fin 1) (y 1)) = B (ix2 (0 : Fin 1) (i 1))) :
    k2_pay1 (F := Ideal) x0 x1 x2 x3 x4 y = layer A H Wrel Wroot B i := by
  refine (congrArg (k2_pay1 (F := Ideal) x0 x1 x2 x3 x4) (eq_ix2 y)).trans ?_
  refine (payload_entry x0 x1 x2 x3 x4 (y 0) (y 1)).trans ?_
  unfold layer
  refine congrArg₂ (· + ·) (congrArg₂ (· + ·) ?_ ?_) h4
  · exact Finset.sum_congr rfl fun k _ => congrArg₂ (· * ·) (h0 k) (h2 k)
  · exact Finset.sum_congr rfl fun k _ => congrArg₂ (· * ·) (h1 k) (h3 k)

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row-blocked windows (both feature inputs and the output) sit at
    block row t, every other block index is 0. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The layer of the five input arrays as the launch finds them. -/
abbrev result (c : Dev nD) : Mat 100000 64 :=
  layer (V c main_v39) (V c main_v29) (V c main_arg8) (V c main_arg10) (V c main_v40)

/-- What point t writes back is block t of that layer. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero zero_offsets]
  simp only [View.ld_unit_zero (S := S10000x128) zero_offsets, View.ld_unit_zero (S := S128x64) zero_offsets,
    View.ld_unit_zero (S := S1x64) zero_offsets]
  obtain ⟨e00, e01, e10, e11, e20, e21, e30, e31, e40, e41, e50, e51⟩ := block_indices t
  funext j
  refine block_entry (V c main_v39) (V c main_v29) (V c main_arg8) (V c main_arg10) (V c main_v40)
    (iblk2 V c 0 t) (iblk2 V c 1 t) (iblk2 V c 2 t) (iblk2 V c 3 t) (iblk2 V c 4 t)
    j (((cfg2.win 5).blk t).view.emb j) ?_ ?_ ?_ ?_ ?_
  · intro k
    show V c main_v39 (((cfg2.win 0).blk t).view.emb (ix2 (j 0) k)) = V c main_v39 (ix2 ((((cfg2.win 5).blk t).view.emb j) 0) k)
    refine congrArg (V c main_v39) (funext fun a => Fin.ext ?_)
    match a with
    | ⟨0, _⟩ => show win2_0.index t (0 : Fin 2) * 10000 + 1 * (j 0).val = win2_5.index t (0 : Fin 2) * 10000 + 1 * (j 0).val; omega
    | ⟨1, _⟩ => show win2_0.index t (1 : Fin 2) * 128 + 1 * k.val = k.val; omega
  · intro k
    show V c main_v29 (((cfg2.win 1).blk t).view.emb (ix2 (j 0) k)) = V c main_v29 (ix2 ((((cfg2.win 5).blk t).view.emb j) 0) k)
    refine congrArg (V c main_v29) (funext fun a => Fin.ext ?_)
    match a with
    | ⟨0, _⟩ => show win2_1.index t (0 : Fin 2) * 10000 + 1 * (j 0).val = win2_5.index t (0 : Fin 2) * 10000 + 1 * (j 0).val; omega
    | ⟨1, _⟩ => show win2_1.index t (1 : Fin 2) * 128 + 1 * k.val = k.val; omega
  · intro k
    show V c main_arg8 (((cfg2.win 2).blk t).view.emb (ix2 k (j 1))) = V c main_arg8 (ix2 k ((((cfg2.win 5).blk t).view.emb j) 1))
    refine congrArg (V c main_arg8) (funext fun a => Fin.ext ?_)
    match a with
    | ⟨0, _⟩ => show win2_2.index t (0 : Fin 2) * 128 + 1 * k.val = k.val; omega
    | ⟨1, _⟩ => show win2_2.index t (1 : Fin 2) * 64 + 1 * (j 1).val = win2_5.index t (1 : Fin 2) * 64 + 1 * (j 1).val; omega
  · intro k
    show V c main_arg10 (((cfg2.win 3).blk t).view.emb (ix2 k (j 1))) = V c main_arg10 (ix2 k ((((cfg2.win 5).blk t).view.emb j) 1))
    refine congrArg (V c main_arg10) (funext fun a => Fin.ext ?_)
    match a with
    | ⟨0, _⟩ => show win2_3.index t (0 : Fin 2) * 128 + 1 * k.val = k.val; omega
    | ⟨1, _⟩ => show win2_3.index t (1 : Fin 2) * 64 + 1 * (j 1).val = win2_5.index t (1 : Fin 2) * 64 + 1 * (j 1).val; omega
  · show V c main_v40 (((cfg2.win 4).blk t).view.emb (ix2 (0 : Fin 1) (j 1))) = V c main_v40 (ix2 (0 : Fin 1) ((((cfg2.win 5).blk t).view.emb j) 1))
    refine congrArg (V c main_v40) (funext fun a => Fin.ext ?_)
    match a with
    | ⟨0, _⟩ => show win2_4.index t (0 : Fin 2) * 1 + 1 * 0 = 0; omega
    | ⟨1, _⟩ => show win2_4.index t (1 : Fin 2) * 64 + 1 * (j 1).val = win2_5.index t (1 : Fin 2) * 64 + 1 * (j 1).val; omega

/-- An entry of the output array lies in point t's block iff each coordinate lies in the block's range. -/
theorem mem_block (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v41).slice (win2_5.rect t)).set ↔ _
  rw [View.set_slice_whole, Rect.mem_set_unit]
  exact Iff.rfl

/-- Row r of the output lies in the block of point r / 10000: the ten blocks cover the array. -/
theorem covered (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : grid2.N = 10 := N_2
  have ht : (i 0).val / 10000 < grid2.N := by omega
  obtain ⟨-, -, -, -, -, -, -, -, -, -, e50, e51⟩ := block_indices ⟨(i 0).val / 10000, ht⟩
  refine ⟨⟨(i 0).val / 10000, ht⟩, flush2_5 _, ?_⟩
  rw [mem_block]
  intro a
  match a with
  | ⟨0, _⟩ =>
    show win2_5.index ⟨(i 0).val / 10000, ht⟩ (0 : Fin 2) * 10000 ≤ (i 0).val ∧ (i 0).val < win2_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win2_5.index ⟨(i 0).val / 10000, ht⟩ (1 : Fin 2) * 64 ≤ (i 1).val ∧ (i 1).val < win2_5.index ⟨(i 0).val / 10000, ht⟩ (1 : Fin 2) * 64 + 64
    rw [e51]
    omega

/-- THE OUTPUT ARRAY after the launch is the layer of the input arrays as the launch found them. -/
theorem final (c : Dev nD) : (dat2 V c).arrAt 5 cfg2.N = result V c :=
  (dat2 V c).arrAt_eq_of_cover 5 (result V c) (fun t _ => flushed_eq V c t) covered

end Cert.KernelIdeal.Layer2

end
-- ==== Proof.Layer1.lean ====
/-
  Kernel launch 1 of three: what its output array holds afterwards, as one function of its five input arrays.

  The launch walks 10 grid points. At point t it loads rows 10000·t … 10000·t + 9999 of the aggregated features and
  of the node features (blocks of 10000 × 128), both weight matrices whole (128 × 128) and the one bias row (1 × 128), and
  stores a 10000 × 128 block that is written back to the same rows of the output. The body computes, at row p and
  column q of the block,

      sum_k agg[p,k] * Wrel[k,q]  +  sum_k feat[p,k] * Wroot[k,q]  +  bias[0,q]

  (two matrix products into zero accumulators, their sum, and the bias row broadcast over the rows; the changes
  of float format before the products are the identity at the ideal values). A block's row p is row
  10000·t + p of the array, so the block is the restriction of the whole-array layer of Spec to those rows. The
  ten blocks tile the 100000 rows (row r lies in block r / 10000), hence the output array IS that layer of the
  input arrays as the launch found them.

  Everything is stated at a parameter V, the buffers' contents when the launch is entered.
-/
import proofs.«135042_j14328010899631_1_alg».proof.Proof.Gen.KernelIdeal.Frame
import proofs.«135042_j14328010899631_1_alg».proof.Proof.Spec
import proofs.«135042_j14328010899631_1_alg».proof.Proof.LibMatmulSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

/-! ## The products' dimension record: which coordinate of each operand index comes from where -/

/-- The record of both products of this launch's body. -/
abbrev dims := dot_S10000x128_S128x128_S10000x128_1_0_0_1_n_n

theorem lhs_row (i : S10000x128.Idx) (q : dims.contr.Idx) : (dims.lhsIdx i q 0).val = (i 0).val := by
  unfold DotDims.lhsIdx
  rw [dif_neg (show ¬(0 : Fin S10000x128.rank) ∈ dims.lhsBatch by decide), dif_pos (show (0 : Fin S10000x128.rank) ∈ dims.lhsNonContracting by decide)]
  rfl
theorem lhs_contr (i : S10000x128.Idx) (q : dims.contr.Idx) : (dims.lhsIdx i q 1).val = (q ⟨0, by decide⟩).val :=
  dims.lhsIdx_val_of_single rfl i q
theorem rhs_contr (i : S10000x128.Idx) (q : dims.contr.Idx) : (dims.rhsIdx i q 0).val = (q ⟨0, by decide⟩).val :=
  dims.rhsIdx_val_of_single rfl i q
theorem rhs_col (i : S10000x128.Idx) (q : dims.contr.Idx) : (dims.rhsIdx i q 1).val = (i 1).val := by
  unfold DotDims.rhsIdx
  rw [dif_neg (show ¬(1 : Fin S128x128.rank) ∈ dims.rhsBatch by decide), dif_pos (show (1 : Fin S128x128.rank) ∈ dims.rhsNonContracting by decide)]
  rfl

/-! ## The body's value at an entry of the block -/

/-- The stored value at row p, column q: the two sums over k and the bias row's entry. -/
theorem payload_entry (x0 x1 : Vec Ideal S10000x128 .f32) (x2 x3 : Vec Ideal S128x128 .f32) (x4 : Vec Ideal S1x128 .f32)
    (p : Fin 10000) (q : Fin 128) :
    k1_pay1 (F := Ideal) x0 x1 x2 x3 x4 (ix2 p q)
      = (∑ k : Fin 128, x0 (ix2 p k) * x2 (ix2 k q) + ∑ k : Fin 128, x1 (ix2 p k) * x3 (ix2 k q)) + x4 (ix2 (0 : Fin 1) q) := by
  unfold k1_pay1
  refine congrArg₂ (· + ·) (congrArg₂ (· + ·) ?_ ?_) ?_
  · refine (matmul_zero_sum dims none rfl rfl lhs_row lhs_contr rhs_contr rhs_col _ _ (ix2 p q)).trans ?_
    exact Finset.sum_congr rfl fun k _ => congrArg₂ (· * ·) (congrFun (shapeCast_self x0 _) _) rfl
  · refine (matmul_zero_sum dims none rfl rfl lhs_row lhs_contr rhs_contr rhs_col _ _ (ix2 p q)).trans ?_
    exact Finset.sum_congr rfl fun k _ => congrArg₂ (· * ·) (congrFun (shapeCast_self x1 _) _) rfl
  · exact (broadcastTo_1b_ab_apply _ _ p q).trans (congrFun (shapeCast_self x4 _) _)

/-- A block entry against the whole-array layer: if the block's operands at the entries the body reads are the
    arrays' at the corresponding entries, the stored value is the layer's. -/
theorem block_entry (A H : Mat 100000 128) (Wrel Wroot : Mat 128 128) (B : Mat 1 128)
    (x0 x1 : Vec Ideal S10000x128 .f32) (x2 x3 : Vec Ideal S128x128 .f32) (x4 : Vec Ideal S1x128 .f32)
    (y : S10000x128.Idx) (i : (⟨2, ![100000, 128]⟩ : Shape).Idx)
    (h0 : ∀ k : Fin 128, x0 (ix2 (y 0) k) = A (ix2 (i 0) k))
    (h1 : ∀ k : Fin 128, x1 (ix2 (y 0) k) = H (ix2 (i 0) k))
    (h2 : ∀ k : Fin 128, x2 (ix2 k (y 1)) = Wrel (ix2 k (i 1)))
    (h3 : ∀ k : Fin 128, x3 (ix2 k (y 1)) = Wroot (ix2 k (i 1)))
    (h4 : x4 (ix2 (0 : Fin 1) (y 1)) = B (ix2 (0 : Fin 1) (i 1))) :
    k1_pay1 (F := Ideal) x0 x1 x2 x3 x4 y = layer A H Wrel Wroot B i := by
  refine (congrArg (k1_pay1 (F := Ideal) x0 x1 x2 x3 x4) (eq_ix2 y)).trans ?_
  refine (payload_entry x0 x1 x2 x3 x4 (y 0) (y 1)).trans ?_
  unfold layer
  refine congrArg₂ (· + ·) (congrArg₂ (· + ·) ?_ ?_) h4
  · exact Finset.sum_congr rfl fun k _ => congrArg₂ (· * ·) (h0 k) (h2 k)
  · exact Finset.sum_congr rfl fun k _ => congrArg₂ (· * ·) (h1 k) (h3 k)

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row-blocked windows (both feature inputs and the output) sit at
    block row t, every other block index is 0. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer of the five input arrays as the launch finds them. -/
abbrev result (c : Dev nD) : Mat 100000 128 :=
  layer (V c main_v26) (V c main_v16) (V c main_arg5) (V c main_arg7) (V c main_v27)

/-- What point t writes back is block t of that layer. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero zero_offsets]
  simp only [View.ld_unit_zero (S := S10000x128) zero_offsets, View.ld_unit_zero (S := S128x128) zero_offsets,
    View.ld_unit_zero (S := S1x128) zero_offsets]
  obtain ⟨e00, e01, e10, e11, e20, e21, e30, e31, e40, e41, e50, e51⟩ := block_indices t
  funext j
  refine block_entry (V c main_v26) (V c main_v16) (V c main_arg5) (V c main_arg7) (V c main_v27)
    (iblk1 V c 0 t) (iblk1 V c 1 t) (iblk1 V c 2 t) (iblk1 V c 3 t) (iblk1 V c 4 t)
    j (((cfg1.win 5).blk t).view.emb j) ?_ ?_ ?_ ?_ ?_
  · intro k
    show V c main_v26 (((cfg1.win 0).blk t).view.emb (ix2 (j 0) k)) = V c main_v26 (ix2 ((((cfg1.win 5).blk t).view.emb j) 0) k)
    refine congrArg (V c main_v26) (funext fun a => Fin.ext ?_)
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 128 + 1 * k.val = k.val; omega
  · intro k
    show V c main_v16 (((cfg1.win 1).blk t).view.emb (ix2 (j 0) k)) = V c main_v16 (ix2 ((((cfg1.win 5).blk t).view.emb j) 0) k)
    refine congrArg (V c main_v16) (funext fun a => Fin.ext ?_)
    match a with
    | ⟨0, _⟩ => show win1_1.index t (0 : Fin 2) * 10000 + 1 * (j 0).val = win1_5.index t (0 : Fin 2) * 10000 + 1 * (j 0).val; omega
    | ⟨1, _⟩ => show win1_1.index t (1 : Fin 2) * 128 + 1 * k.val = k.val; omega
  · intro k
    show V c main_arg5 (((cfg1.win 2).blk t).view.emb (ix2 k (j 1))) = V c main_arg5 (ix2 k ((((cfg1.win 5).blk t).view.emb j) 1))
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  · intro k
    show V c main_arg7 (((cfg1.win 3).blk t).view.emb (ix2 k (j 1))) = V c main_arg7 (ix2 k ((((cfg1.win 5).blk t).view.emb j) 1))
    refine congrArg (V c main_arg7) (funext fun a => Fin.ext ?_)
    match a with
    | ⟨0, _⟩ => show win1_3.index t (0 : Fin 2) * 128 + 1 * k.val = k.val; omega
    | ⟨1, _⟩ => show win1_3.index t (1 : Fin 2) * 128 + 1 * (j 1).val = win1_5.index t (1 : Fin 2) * 128 + 1 * (j 1).val; omega
  · show V c main_v27 (((cfg1.win 4).blk t).view.emb (ix2 (0 : Fin 1) (j 1))) = V c main_v27 (ix2 (0 : Fin 1) ((((cfg1.win 5).blk t).view.emb j) 1))
    refine congrArg (V c main_v27) (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega

/-- An entry of the output array lies in point t's block iff each coordinate lies in the block's range. -/
theorem mem_block (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v28).slice (win1_5.rect t)).set ↔ _
  rw [View.set_slice_whole, Rect.mem_set_unit]
  exact Iff.rfl

/-- Row r of the output lies in the block of point r / 10000: the ten blocks cover the array. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 10 := N_1
  have ht : (i 0).val / 10000 < grid1.N := by omega
  obtain ⟨-, -, -, -, -, -, -, -, -, -, e50, e51⟩ := block_indices ⟨(i 0).val / 10000, ht⟩
  refine ⟨⟨(i 0).val / 10000, ht⟩, flush1_5 _, ?_⟩
  rw [mem_block]
  intro a
  match a with
  | ⟨0, _⟩ =>
    show win1_5.index ⟨(i 0).val / 10000, ht⟩ (0 : Fin 2) * 10000 ≤ (i 0).val ∧ (i 0).val < win1_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win1_5.index ⟨(i 0).val / 10000, ht⟩ (1 : Fin 2) * 128 ≤ (i 1).val ∧ (i 1).val < win1_5.index ⟨(i 0).val / 10000, ht⟩ (1 : Fin 2) * 128 + 128
    rw [e51]
    omega

/-- THE OUTPUT ARRAY after the launch is the layer of the input arrays as the launch found them. -/
theorem final (c : Dev nD) : (dat1 V c).arrAt 5 cfg1.N = result V c :=
  (dat1 V c).arrAt_eq_of_cover 5 (result V c) (fun t _ => flushed_eq V c t) covered

end Cert.KernelIdeal.Layer1

end
-- ==== Proof.Layer0.lean ====
/-
  Kernel launch 0 of three: what its output array holds afterwards, as one function of its five input arrays.

  The launch walks 10 grid points. At point t it loads rows 10000·t … 10000·t + 9999 of the aggregated features and
  of the node features (blocks of 10000 × 64), both weight matrices whole (64 × 128) and the one bias row (1 × 128), and
  stores a 10000 × 128 block that is written back to the same rows of the output. The body computes, at row p and
  column q of the block,

      sum_k agg[p,k] * Wrel[k,q]  +  sum_k feat[p,k] * Wroot[k,q]  +  bias[0,q]

  (two matrix products into zero accumulators, their sum, and the bias row broadcast over the rows; the changes
  of float format before the products are the identity at the ideal values). A block's row p is row
  10000·t + p of the array, so the block is the restriction of the whole-array layer of Spec to those rows. The
  ten blocks tile the 100000 rows (row r lies in block r / 10000), hence the output array IS that layer of the
  input arrays as the launch found them.

  Everything is stated at a parameter V, the buffers' contents when the launch is entered.
-/
import proofs.«135042_j14328010899631_1_alg».proof.Proof.Gen.KernelIdeal.Frame
import proofs.«135042_j14328010899631_1_alg».proof.Proof.Spec
import proofs.«135042_j14328010899631_1_alg».proof.Proof.LibMatmulSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer0

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

/-! ## The products' dimension record: which coordinate of each operand index comes from where -/

/-- The record of both products of this launch's body. -/
abbrev dims := dot_S10000x64_S64x128_S10000x128_1_0_0_1_n_n

theorem lhs_row (i : S10000x128.Idx) (q : dims.contr.Idx) : (dims.lhsIdx i q 0).val = (i 0).val := by
  unfold DotDims.lhsIdx
  rw [dif_neg (show ¬(0 : Fin S10000x64.rank) ∈ dims.lhsBatch by decide), dif_pos (show (0 : Fin S10000x64.rank) ∈ dims.lhsNonContracting by decide)]
  rfl
theorem lhs_contr (i : S10000x128.Idx) (q : dims.contr.Idx) : (dims.lhsIdx i q 1).val = (q ⟨0, by decide⟩).val :=
  dims.lhsIdx_val_of_single rfl i q
theorem rhs_contr (i : S10000x128.Idx) (q : dims.contr.Idx) : (dims.rhsIdx i q 0).val = (q ⟨0, by decide⟩).val :=
  dims.rhsIdx_val_of_single rfl i q
theorem rhs_col (i : S10000x128.Idx) (q : dims.contr.Idx) : (dims.rhsIdx i q 1).val = (i 1).val := by
  unfold DotDims.rhsIdx
  rw [dif_neg (show ¬(1 : Fin S64x128.rank) ∈ dims.rhsBatch by decide), dif_pos (show (1 : Fin S64x128.rank) ∈ dims.rhsNonContracting by decide)]
  rfl

/-! ## The body's value at an entry of the block -/

/-- The stored value at row p, column q: the two sums over k and the bias row's entry. -/
theorem payload_entry (x0 x1 : Vec Ideal S10000x64 .f32) (x2 x3 : Vec Ideal S64x128 .f32) (x4 : Vec Ideal S1x128 .f32)
    (p : Fin 10000) (q : Fin 128) :
    k0_pay1 (F := Ideal) x0 x1 x2 x3 x4 (ix2 p q)
      = (∑ k : Fin 64, x0 (ix2 p k) * x2 (ix2 k q) + ∑ k : Fin 64, x1 (ix2 p k) * x3 (ix2 k q)) + x4 (ix2 (0 : Fin 1) q) := by
  unfold k0_pay1
  refine congrArg₂ (· + ·) (congrArg₂ (· + ·) ?_ ?_) ?_
  · refine (matmul_zero_sum dims none rfl rfl lhs_row lhs_contr rhs_contr rhs_col _ _ (ix2 p q)).trans ?_
    exact Finset.sum_congr rfl fun k _ => congrArg₂ (· * ·) (congrFun (shapeCast_self x0 _) _) rfl
  · exact matmul_zero_sum dims none rfl rfl lhs_row lhs_contr rhs_contr rhs_col _ _ (ix2 p q)
  · exact (broadcastTo_1b_ab_apply _ _ p q).trans (congrFun (shapeCast_self x4 _) _)

/-- A block entry against the whole-array layer: if the block's operands at the entries the body reads are the
    arrays' at the corresponding entries, the stored value is the layer's. -/
theorem block_entry (A H : Mat 100000 64) (Wrel Wroot : Mat 64 128) (B : Mat 1 128)
    (x0 x1 : Vec Ideal S10000x64 .f32) (x2 x3 : Vec Ideal S64x128 .f32) (x4 : Vec Ideal S1x128 .f32)
    (y : S10000x128.Idx) (i : (⟨2, ![100000, 128]⟩ : Shape).Idx)
    (h0 : ∀ k : Fin 64, x0 (ix2 (y 0) k) = A (ix2 (i 0) k))
    (h1 : ∀ k : Fin 64, x1 (ix2 (y 0) k) = H (ix2 (i 0) k))
    (h2 : ∀ k : Fin 64, x2 (ix2 k (y 1)) = Wrel (ix2 k (i 1)))
    (h3 : ∀ k : Fin 64, x3 (ix2 k (y 1)) = Wroot (ix2 k (i 1)))
    (h4 : x4 (ix2 (0 : Fin 1) (y 1)) = B (ix2 (0 : Fin 1) (i 1))) :
    k0_pay1 (F := Ideal) x0 x1 x2 x3 x4 y = layer A H Wrel Wroot B i := by
  refine (congrArg (k0_pay1 (F := Ideal) x0 x1 x2 x3 x4) (eq_ix2 y)).trans ?_
  refine (payload_entry x0 x1 x2 x3 x4 (y 0) (y 1)).trans ?_
  unfold layer
  refine congrArg₂ (· + ·) (congrArg₂ (· + ·) ?_ ?_) h4
  · exact Finset.sum_congr rfl fun k _ => congrArg₂ (· * ·) (h0 k) (h2 k)
  · exact Finset.sum_congr rfl fun k _ => congrArg₂ (· * ·) (h1 k) (h3 k)

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row-blocked windows (both feature inputs and the output) sit at
    block row t, every other block index is 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer of the five input arrays as the launch finds them. -/
abbrev result (c : Dev nD) : Mat 100000 128 :=
  layer (V c main_v13) (V c main_arg0) (V c main_arg2) (V c main_arg4) (V c main_v14)

/-- What point t writes back is block t of that layer. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero zero_offsets]
  simp only [View.ld_unit_zero (S := S10000x64) zero_offsets, View.ld_unit_zero (S := S64x128) zero_offsets,
    View.ld_unit_zero (S := S1x128) zero_offsets]
  obtain ⟨e00, e01, e10, e11, e20, e21, e30, e31, e40, e41, e50, e51⟩ := block_indices t
  funext j
  refine block_entry (V c main_v13) (V c main_arg0) (V c main_arg2) (V c main_arg4) (V c main_v14)
    (iblk0 V c 0 t) (iblk0 V c 1 t) (iblk0 V c 2 t) (iblk0 V c 3 t) (iblk0 V c 4 t)
    j (((cfg0.win 5).blk t).view.emb j) ?_ ?_ ?_ ?_ ?_
  · intro k
    show V c main_v13 (((cfg0.win 0).blk t).view.emb (ix2 (j 0) k)) = V c main_v13 (ix2 ((((cfg0.win 5).blk t).view.emb j) 0) k)
    refine congrArg (V c main_v13) (funext fun a => Fin.ext ?_)
    match a with
    | ⟨0, _⟩ => show win0_0.index t (0 : Fin 2) * 10000 + 1 * (j 0).val = win0_5.index t (0 : Fin 2) * 10000 + 1 * (j 0).val; omega
    | ⟨1, _⟩ => show win0_0.index t (1 : Fin 2) * 64 + 1 * k.val = k.val; omega
  · intro k
    show V c main_arg0 (((cfg0.win 1).blk t).view.emb (ix2 (j 0) k)) = V c main_arg0 (ix2 ((((cfg0.win 5).blk t).view.emb j) 0) k)
    refine congrArg (V c main_arg0) (funext fun a => Fin.ext ?_)
    match a with
    | ⟨0, _⟩ => show win0_1.index t (0 : Fin 2) * 10000 + 1 * (j 0).val = win0_5.index t (0 : Fin 2) * 10000 + 1 * (j 0).val; omega
    | ⟨1, _⟩ => show win0_1.index t (1 : Fin 2) * 64 + 1 * k.val = k.val; omega
  · intro k
    show V c main_arg2 (((cfg0.win 2).blk t).view.emb (ix2 k (j 1))) = V c main_arg2 (ix2 k ((((cfg0.win 5).blk t).view.emb j) 1))
    refine congrArg (V c main_arg2) (funext fun a => Fin.ext ?_)
    match a with
    | ⟨0, _⟩ => show win0_2.index t (0 : Fin 2) * 64 + 1 * k.val = k.val; omega
    | ⟨1, _⟩ => show win0_2.index t (1 : Fin 2) * 128 + 1 * (j 1).val = win0_5.index t (1 : Fin 2) * 128 + 1 * (j 1).val; omega
  · intro k
    show V c main_arg4 (((cfg0.win 3).blk t).view.emb (ix2 k (j 1))) = V c main_arg4 (ix2 k ((((cfg0.win 5).blk t).view.emb j) 1))
    refine congrArg (V c main_arg4) (funext fun a => Fin.ext ?_)
    match a with
    | ⟨0, _⟩ => show win0_3.index t (0 : Fin 2) * 64 + 1 * k.val = k.val; omega
    | ⟨1, _⟩ => show win0_3.index t (1 : Fin 2) * 128 + 1 * (j 1).val = win0_5.index t (1 : Fin 2) * 128 + 1 * (j 1).val; omega
  · show V c main_v14 (((cfg0.win 4).blk t).view.emb (ix2 (0 : Fin 1) (j 1))) = V c main_v14 (ix2 (0 : Fin 1) ((((cfg0.win 5).blk t).view.emb j) 1))
    refine congrArg (V c main_v14) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega

/-- An entry of the output array lies in point t's block iff each coordinate lies in the block's range. -/
theorem mem_block (t : Fin cfg0.N) (i : S100000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v15).slice (win0_5.rect t)).set ↔ _
  rw [View.set_slice_whole, Rect.mem_set_unit]
  exact Iff.rfl

/-- Row r of the output lies in the block of point r / 10000: the ten blocks cover the array. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 10 := N_0
  have ht : (i 0).val / 10000 < grid0.N := by omega
  obtain ⟨-, -, -, -, -, -, -, -, -, -, e50, e51⟩ := block_indices ⟨(i 0).val / 10000, ht⟩
  refine ⟨⟨(i 0).val / 10000, ht⟩, flush0_5 _, ?_⟩
  rw [mem_block]
  intro a
  match a with
  | ⟨0, _⟩ =>
    show win0_5.index ⟨(i 0).val / 10000, ht⟩ (0 : Fin 2) * 10000 ≤ (i 0).val ∧ (i 0).val < win0_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win0_5.index ⟨(i 0).val / 10000, ht⟩ (1 : Fin 2) * 128 ≤ (i 1).val ∧ (i 1).val < win0_5.index ⟨(i 0).val / 10000, ht⟩ (1 : Fin 2) * 128 + 128
    rw [e51]
    omega

/-- THE OUTPUT ARRAY after the launch is the layer of the input arrays as the launch found them. -/
theorem final (c : Dev nD) : (dat0 V c).arrAt 5 cfg0.N = result V c :=
  (dat0 V c).arrAt_eq_of_cover 5 (result V c) (fun t _ => flushed_eq V c t) covered

end Cert.KernelIdeal.Layer0

end
-- ==== Proof.HostChain0.lean ====
/-
  The idealized kernel program's buffers, from the launch memory through the first kernel launch.

  The first stretch of host operations slices the edge list's two rows, aggregates the input features along the
  edges, and reshapes the first bias; it writes none of the arguments. The first launch then leaves its output
  array at the first layer's value of the arguments (Layer0, at the contents the launch is entered with).
-/
import proofs.«135042_j14328010899631_1_alg».proof.Proof.Gen.KernelIdeal.Frame
import proofs.«135042_j14328010899631_1_alg».proof.Proof.Spec
import proofs.«135042_j14328010899631_1_alg».proof.Proof.HostFns
import proofs.«135042_j14328010899631_1_alg».proof.Proof.HostKeep
import proofs.«135042_j14328010899631_1_alg».proof.Proof.Layer0
import Idealize.ShloMosaic.Lib.StableHlo.Run

set_option maxRecDepth 16384

noncomputable section

namespace Cert.KernelIdeal.Net

open Cert.KernelIdeal Cert.KernelIdeal.Gen Cert.GraphConv
open Idealize.ShloMosaic Idealize.ShloMosaic.TcCoe Idealize.SL.Sem Idealize.ShloMosaic.StableHlo

-- the aggregation's two host operations are compared by their arguments only, never opened
attribute [local irreducible] Host.scatterAdd Host.gather

variable (m : (ℓ : Loc nD τ sig) → Buf (Elt Ideal) ℓ) (ρ : Dev nD → PrngReg)

/-! ## Launch 0: its input arrays, and its output -/

section
variable (c : Dev nD)

/-- The first stretch slices out the edges' source row … -/
theorem src_at_1 : W1 m ρ c (Proc.devRef .tc main_v1) = sourceRow (m ((c : Thread nD τ).loc main_arg1)) := by
  show StableHlo.after hostOps0 (W0 m ρ c) (Proc.devRef .tc main_v1) = _
  after_results
  rfl
/-- … and their destination row, -/
theorem dst_at_1 : W1 m ρ c (Proc.devRef .tc main_v3) = destRow (m ((c : Thread nD τ).loc main_arg1)) := by
  show StableHlo.after hostOps0 (W0 m ρ c) (Proc.devRef .tc main_v3) = _
  after_results
  rfl
/-- aggregates the input features, -/
theorem agg_at_1 : W1 m ρ c (Proc.devRef .tc main_v13)
    = aggregate64 (sourceRow (m ((c : Thread nD τ).loc main_arg1))) (destRow (m ((c : Thread nD τ).loc main_arg1))) (m ((c : Thread nD τ).loc main_arg0)) := by
  show StableHlo.after hostOps0 (W0 m ρ c) (Proc.devRef .tc main_v13) = _
  after_results
  rfl
/-- and reshapes the first bias. -/
theorem bias_at_1 : W1 m ρ c (Proc.devRef .tc main_v14) = biasRow128 (m ((c : Thread nD τ).loc main_arg3)) := by
  show StableHlo.after hostOps0 (W0 m ρ c) (Proc.devRef .tc main_v14) = _
  after_results
  rfl

/-- Launch 0 leaves its output array at the first layer's value. -/
theorem out_at_2 : W2 m ρ c (Proc.devRef .tc main_v15) = (hidden1 (m ((c : Thread nD τ).loc main_arg0)) (m ((c : Thread nD τ).loc main_arg1)) (m ((c : Thread nD τ).loc main_arg2)) (m ((c : Thread nD τ).loc main_arg3)) (m ((c : Thread nD τ).loc main_arg4))) := by
  refine (W2_arr m ρ c 5).trans ((Layer0.final (V1 m ρ) c).trans ?_)
  show layer (W1 m ρ c (Proc.devRef .tc main_v13)) (W1 m ρ c (Proc.devRef .tc main_arg0)) (W1 m ρ c (Proc.devRef .tc main_arg2))
    (W1 m ρ c (Proc.devRef .tc main_arg4)) (W1 m ρ c (Proc.devRef .tc main_v14)) = _
  rw [agg_at_1, bias_at_1, keep1 m ρ c main_arg0 (by decide), keep1 m ρ c main_arg2 (by decide), keep1 m ρ c main_arg4 (by decide)]
  rfl

end

end Cert.KernelIdeal.Net

end
-- ==== Proof.HostChain1.lean ====
/-
  The idealized kernel program's buffers, through the second kernel launch.

  After the first launch the activation is applied to its output; the next stretch aggregates the activated
  features along the same edges (the two edge rows sliced by the first stretch are still in their buffers) and
  reshapes the second bias; the second layer's weights are still as launched. The second launch leaves its output
  array at the second layer's value of the arguments (Layer1).
-/
import proofs.«135042_j14328010899631_1_alg».proof.Proof.Gen.KernelIdeal.Frame
import proofs.«135042_j14328010899631_1_alg».proof.Proof.Spec
import proofs.«135042_j14328010899631_1_alg».proof.Proof.HostFns
import proofs.«135042_j14328010899631_1_alg».proof.Proof.HostKeep
import proofs.«135042_j14328010899631_1_alg».proof.Proof.Layer1
import proofs.«135042_j14328010899631_1_alg».proof.Proof.HostChain0
import Idealize.ShloMosaic.Lib.StableHlo.Run

set_option maxRecDepth 16384

noncomputable section

namespace Cert.KernelIdeal.Net

open Cert.KernelIdeal Cert.KernelIdeal.Gen Cert.GraphConv
open Idealize.ShloMosaic Idealize.ShloMosaic.TcCoe Idealize.SL.Sem Idealize.ShloMosaic.StableHlo

-- the aggregation's two host operations, a layer's value and the contents at a launch's exit are compared by their
-- arguments only, never opened
attribute [local irreducible] Host.scatterAdd Host.gather layer hidden1 hidden2 W2 W5 W8

variable (m : (ℓ : Loc nD τ sig) → Buf (Elt Ideal) ℓ) (ρ : Dev nD → PrngReg)

section
variable (c : Dev nD)

/-! ## What is still in place after launch 0 -/

/-- The edge list's source row, sliced by the first stretch, -/
theorem src_at_2 : W2 m ρ c (Proc.devRef .tc main_v1) = sourceRow (m ((c : Thread nD τ).loc main_arg1)) :=
  (W2_of_ne m ρ c main_v1 (by decide)).trans (src_at_1 m ρ c)
/-- its destination row, -/
theorem dst_at_2 : W2 m ρ c (Proc.devRef .tc main_v3) = destRow (m ((c : Thread nD τ).loc main_arg1)) :=
  (W2_of_ne m ρ c main_v3 (by decide)).trans (dst_at_1 m ρ c)
/-- and every argument no launch so far takes and no stretch writes. -/
theorem arg_at_2 (r : Ref sig .tc) (h0 : ∀ w, Pipeline.arrRef spec0 w ≠ r) (hw : r ∉ written0) :
    W2 m ρ c (Proc.devRef .tc r) = m ((c : Thread nD τ).loc r) :=
  (W2_of_ne m ρ c r h0).trans (keep1 m ρ c r hw)

/-! ## The two stretches before launch 1: activation, aggregation, the bias row -/

set_option maxHeartbeats 2000000 in
/-- The activation of the previous layer's value. -/
theorem act_at_4 : W4 m ρ c (Proc.devRef .tc main_v16) = activate (hidden1 (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps1_1 (StableHlo.after hostOps1 (W2 m ρ c)) (Proc.devRef .tc main_v16) = _
  after_results
  simp only [cast_eq]
  rw [out_at_2]
  rfl

set_option maxHeartbeats 2000000 in
/-- Its aggregation along the edges. -/
theorem agg_at_4 : W4 m ρ c (Proc.devRef .tc main_v26)
    = aggregate128 (sourceRow (m ((c : Thread nD τ).loc main_arg1))) (destRow (m ((c : Thread nD τ).loc main_arg1))) (activate (hidden1 (m ((c : Thread nD τ).loc main_arg0)) (m ((c : Thread nD τ).loc main_arg1)) (m ((c : Thread nD τ).loc main_arg2)) (m ((c : Thread nD τ).loc main_arg3)) (m ((c : Thread nD τ).loc main_arg4)))) := by
  show StableHlo.after hostOps1_1 (StableHlo.after hostOps1 (W2 m ρ c)) (Proc.devRef .tc main_v26) = _
  after_results
  simp only [cast_eq]
  rw [src_at_2, dst_at_2, out_at_2]
  rfl

set_option maxHeartbeats 2000000 in
/-- The layer's bias as a row. -/
theorem bias_at_4 : W4 m ρ c (Proc.devRef .tc main_v27) = biasRow128 (m ((c : Thread nD τ).loc main_arg6)) := by
  show StableHlo.after hostOps1_1 (StableHlo.after hostOps1 (W2 m ρ c)) (Proc.devRef .tc main_v27) = _
  after_results
  rw [arg_at_2 m ρ c main_arg6 (by decide) (by decide)]
  rfl

/-- The layer's two weight matrices are as launched. -/
theorem wrel_at_4 : W4 m ρ c (Proc.devRef .tc main_arg5) = (m ((c : Thread nD τ).loc main_arg5)) :=
  (keep4 m ρ c main_arg5 (by decide)).trans ((keep3 m ρ c main_arg5 (by decide)).trans (arg_at_2 m ρ c main_arg5 (by decide) (by decide)))
theorem wroot_at_4 : W4 m ρ c (Proc.devRef .tc main_arg7) = (m ((c : Thread nD τ).loc main_arg7)) :=
  (keep4 m ρ c main_arg7 (by decide)).trans ((keep3 m ρ c main_arg7 (by decide)).trans (arg_at_2 m ρ c main_arg7 (by decide) (by decide)))

/-! ## Launch 1 -/

/-- Launch 1 leaves its output array at the layer's value of the arguments. -/
theorem out_at_5 : W5 m ρ c (Proc.devRef .tc main_v28) = (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W5_arr m ρ c 5).trans ((Layer1.final (V4 m ρ) c).trans ?_)
  show layer (W4 m ρ c (Proc.devRef .tc main_v26)) (W4 m ρ c (Proc.devRef .tc main_v16)) (W4 m ρ c (Proc.devRef .tc main_arg5))
    (W4 m ρ c (Proc.devRef .tc main_arg7)) (W4 m ρ c (Proc.devRef .tc main_v27)) = _
  rw [agg_at_4, act_at_4, wrel_at_4, wroot_at_4, bias_at_4]
  unfold hidden2
  rfl

end

end Cert.KernelIdeal.Net

end
-- ==== Proof.HostChain2.lean ====
/-
  The idealized kernel program's buffers, through the third kernel launch, to the result.

  As for the second layer: activation, aggregation along the same edges, the third bias reshaped, the third
  layer's weights still as launched. The third launch leaves the result buffer at the third layer's value of the
  eleven arguments (Layer2): the program's result.
-/
import proofs.«135042_j14328010899631_1_alg».proof.Proof.Gen.KernelIdeal.Frame
import proofs.«135042_j14328010899631_1_alg».proof.Proof.Spec
import proofs.«135042_j14328010899631_1_alg».proof.Proof.HostFns
import proofs.«135042_j14328010899631_1_alg».proof.Proof.HostKeep
import proofs.«135042_j14328010899631_1_alg».proof.Proof.Layer2
import proofs.«135042_j14328010899631_1_alg».proof.Proof.HostChain1
import Idealize.ShloMosaic.Lib.StableHlo.Run

set_option maxRecDepth 16384

noncomputable section

namespace Cert.KernelIdeal.Net

open Cert.KernelIdeal Cert.KernelIdeal.Gen Cert.GraphConv
open Idealize.ShloMosaic Idealize.ShloMosaic.TcCoe Idealize.SL.Sem Idealize.ShloMosaic.StableHlo

-- the aggregation's two host operations, a layer's value and the contents at a launch's exit are compared by their
-- arguments only, never opened
attribute [local irreducible] Host.scatterAdd Host.gather layer hidden1 hidden2 W2 W5 W8

variable (m : (ℓ : Loc nD τ sig) → Buf (Elt Ideal) ℓ) (ρ : Dev nD → PrngReg)

section
variable (c : Dev nD)

/-! ## What is still in place after launch 1 -/

/-- The edge list's source row, sliced by the first stretch, -/
theorem src_at_5 : W5 m ρ c (Proc.devRef .tc main_v1) = sourceRow (m ((c : Thread nD τ).loc main_arg1)) :=
  (W5_of_ne m ρ c main_v1 (by decide)).trans ((keep4 m ρ c main_v1 (by decide)).trans ((keep3 m ρ c main_v1 (by decide)).trans (src_at_2 m ρ c)))
/-- its destination row, -/
theorem dst_at_5 : W5 m ρ c (Proc.devRef .tc main_v3) = destRow (m ((c : Thread nD τ).loc main_arg1)) :=
  (W5_of_ne m ρ c main_v3 (by decide)).trans ((keep4 m ρ c main_v3 (by decide)).trans ((keep3 m ρ c main_v3 (by decide)).trans (dst_at_2 m ρ c)))
/-- and every argument no launch so far takes and no stretch writes. -/
theorem arg_at_5 (r : Ref sig .tc) (h1 : ∀ w, Pipeline.arrRef spec1 w ≠ r) (h1' : r ∉ written1') (h1'' : r ∉ written1) (h0 : ∀ w, Pipeline.arrRef spec0 w ≠ r) (hw : r ∉ written0) :
    W5 m ρ c (Proc.devRef .tc r) = m ((c : Thread nD τ).loc r) :=
  (W5_of_ne m ρ c r h1).trans ((keep4 m ρ c r h1').trans ((keep3 m ρ c r h1'').trans (arg_at_2 m ρ c r h0 hw)))

/-! ## The two stretches before launch 2: activation, aggregation, the bias row -/

set_option maxHeartbeats 2000000 in
/-- The activation of the previous layer's value. -/
theorem act_at_7 : W7 m ρ c (Proc.devRef .tc main_v29) = activate (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps2_1 (StableHlo.after hostOps2 (W5 m ρ c)) (Proc.devRef .tc main_v29) = _
  after_results
  simp only [cast_eq]
  rw [out_at_5]
  rfl

set_option maxHeartbeats 2000000 in
/-- Its aggregation along the edges. -/
theorem agg_at_7 : W7 m ρ c (Proc.devRef .tc main_v39)
    = aggregate128 (sourceRow (m ((c : Thread nD τ).loc main_arg1))) (destRow (m ((c : Thread nD τ).loc main_arg1))) (activate (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) := by
  show StableHlo.after hostOps2_1 (StableHlo.after hostOps2 (W5 m ρ c)) (Proc.devRef .tc main_v39) = _
  after_results
  simp only [cast_eq]
  rw [src_at_5, dst_at_5, out_at_5]
  rfl

set_option maxHeartbeats 2000000 in
/-- The layer's bias as a row. -/
theorem bias_at_7 : W7 m ρ c (Proc.devRef .tc main_v40) = biasRow64 (m ((c : Thread nD τ).loc main_arg9)) := by
  show StableHlo.after hostOps2_1 (StableHlo.after hostOps2 (W5 m ρ c)) (Proc.devRef .tc main_v40) = _
  after_results
  rw [arg_at_5 m ρ c main_arg9 (by decide) (by decide) (by decide) (by decide) (by decide)]
  rfl

/-- The layer's two weight matrices are as launched. -/
theorem wrel_at_7 : W7 m ρ c (Proc.devRef .tc main_arg8) = (m ((c : Thread nD τ).loc main_arg8)) :=
  (keep7 m ρ c main_arg8 (by decide)).trans ((keep6 m ρ c main_arg8 (by decide)).trans (arg_at_5 m ρ c main_arg8 (by decide) (by decide) (by decide) (by decide) (by decide)))
theorem wroot_at_7 : W7 m ρ c (Proc.devRef .tc main_arg10) = (m ((c : Thread nD τ).loc main_arg10)) :=
  (keep7 m ρ c main_arg10 (by decide)).trans ((keep6 m ρ c main_arg10 (by decide)).trans (arg_at_5 m ρ c main_arg10 (by decide) (by decide) (by decide) (by decide) (by decide)))

/-! ## Launch 2 -/

/-- Launch 2 leaves its output array at the layer's value of the arguments. -/
theorem out_at_8 : W8 m ρ c (Proc.devRef .tc main_v41) = (output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W8_arr m ρ c 5).trans ((Layer2.final (V7 m ρ) c).trans ?_)
  show layer (W7 m ρ c (Proc.devRef .tc main_v39)) (W7 m ρ c (Proc.devRef .tc main_v29)) (W7 m ρ c (Proc.devRef .tc main_arg8))
    (W7 m ρ c (Proc.devRef .tc main_arg10)) (W7 m ρ c (Proc.devRef .tc main_v40)) = _
  rw [agg_at_7, act_at_7, wrel_at_7, wroot_at_7, bias_at_7]
  unfold output
  rfl

end

end Cert.KernelIdeal.Net

end
-- ==== Proof.Reference.lean ====
/-
  The idealized reference, read as the same three layers.

  The reference computes each layer on the host: the aggregated features times W_rel, plus the bias (broadcast
  over the rows), plus the node features times W_root. Read at an entry (the generated read-at-an-index lemmas
  give each matrix product as a sum over k and each broadcast as its operand at the right entry) that is the
  bias-in-the-middle layer of Spec, which equals the bias-last layer by commutativity and associativity of
  extended-real addition. Its aggregation (gather along the edges, scatter-add per destination) and its
  activation are, operation for operation, the ones the kernel program runs on the host, so they are the same
  named functions and are never opened. Hence the reference's result is the kernel program's `output` term of the
  eleven argument arrays.
-/
import proofs.«135042_j14328010899631_1_alg».proof.Proof.Gen.ReferenceIdeal.Read
import proofs.«135042_j14328010899631_1_alg».proof.Proof.Spec
import proofs.«135042_j14328010899631_1_alg».proof.Proof.HostFns

set_option maxRecDepth 16384

noncomputable section

namespace Cert.ReferenceIdeal.Net

open Cert.ReferenceIdeal Cert.ReferenceIdeal.Gen Cert.ReferenceIdeal.Read Cert.GraphConv
open Idealize.ShloMosaic Idealize.ShloMosaic.ValueIdx
open Cert.KernelIdeal.Net (sourceRow destRow aggregate64 aggregate128 activate biasRow128 biasRow64 hidden1 hidden2 output biasRow128_eq biasRow64_eq)

-- the aggregation's two host operations are compared by their arguments only, never opened
attribute [local irreducible] Host.scatterAdd Host.gather

/-- A matrix index is determined by its two coordinates. -/
theorem idx2_eq {n0 n1 : ℕ} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- A vector index is determined by its coordinate. -/
theorem idx1_eq {n : ℕ} (j : (⟨1, ![n]⟩ : Shape).Idx) (a : Fin n) (h : (j 0).val = a.val) : j = ix1 a :=
  funext fun d => Fin.ext (by match d with | ⟨0, _⟩ => exact h)

/-! ## Layer 1 -/

/-- The reference's first aggregation is the kernel program's, on the same edge list and features. -/
theorem agg1 (x0 : (⟨S100000x64, .f32⟩ : BufTy).Contents (Elt Ideal)) (x1 : (⟨S2x1600000, .i32⟩ : BufTy).Contents (Elt Ideal)) :
    val_main_v13 (F := Ideal) x0 x1 = aggregate64 (sourceRow x1) (destRow x1) x0 := rfl

/-- Entry by entry the reference's first layer is (agg·W_rel + bias) + x·W_root. -/
theorem layer1 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) :
    val_main_v19 (F := Ideal) x0 x1 x2 x3 x4 = layerBiasMid (val_main_v13 (F := Ideal) x0 x1) x0 x2 x4 x3 := by
  funext i
  rw [val_main_v19_apply, val_main_v17_apply, val_main_v14_apply, val_main_v16_apply, val_main_v15_apply, val_main_v18_apply]
  unfold layerBiasMid
  simp only [Ideal.addf_def]
  refine congrArg₂ (· + ·) (congrArg₂ (· + ·) (Finset.sum_congr rfl fun k _ => ?_) ?_) (Finset.sum_congr rfl fun k _ => ?_)
  · exact congrArg₂ (· * ·) (congrArg _ (idx2_eq _ (i 0) k rfl rfl)) (congrArg _ (idx2_eq _ k (i 1) rfl rfl))
  · exact congrArg _ (idx1_eq _ (i 1) rfl)
  · exact congrArg₂ (· * ·) (congrArg _ (idx2_eq _ (i 0) k rfl rfl)) (congrArg _ (idx2_eq _ k (i 1) rfl rfl))

theorem ref_hidden1 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) :
    val_main_v19 (F := Ideal) x0 x1 x2 x3 x4 = hidden1 x0 x1 x2 x3 x4 := by
  rw [layer1, layerBiasMid_eq, agg1, ← biasRow128_eq]
  rfl

/-- The reference's activation is the kernel program's. -/
theorem act1 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) :
    val_main_v20 (F := Ideal) x0 x1 x2 x3 x4 = activate (val_main_v19 (F := Ideal) x0 x1 x2 x3 x4) := rfl

/-! ## Layer 2 -/

theorem agg2 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) :
    val_main_v30 (F := Ideal) x0 x1 x2 x3 x4 = aggregate128 (sourceRow x1) (destRow x1) (val_main_v20 (F := Ideal) x0 x1 x2 x3 x4) := rfl

theorem layer2 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v36 (F := Ideal) x0 x1 x2 x3 x4 x5 x6 x7 = layerBiasMid (val_main_v30 (F := Ideal) x0 x1 x2 x3 x4) (val_main_v20 (F := Ideal) x0 x1 x2 x3 x4) x5 x7 x6 := by
  funext i
  rw [val_main_v36_apply, val_main_v34_apply, val_main_v31_apply, val_main_v33_apply, val_main_v32_apply, val_main_v35_apply]
  unfold layerBiasMid
  simp only [Ideal.addf_def]
  refine congrArg₂ (· + ·) (congrArg₂ (· + ·) (Finset.sum_congr rfl fun k _ => ?_) ?_) (Finset.sum_congr rfl fun k _ => ?_)
  · exact congrArg₂ (· * ·) (congrArg _ (idx2_eq _ (i 0) k rfl rfl)) (congrArg _ (idx2_eq _ k (i 1) rfl rfl))
  · exact congrArg _ (idx1_eq _ (i 1) rfl)
  · exact congrArg₂ (· * ·) (congrArg _ (idx2_eq _ (i 0) k rfl rfl)) (congrArg _ (idx2_eq _ k (i 1) rfl rfl))

theorem ref_hidden2 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v36 (F := Ideal) x0 x1 x2 x3 x4 x5 x6 x7 = hidden2 x0 x1 x2 x3 x4 x5 x6 x7 := by
  rw [layer2, layerBiasMid_eq, agg2, act1, ref_hidden1, ← biasRow128_eq]
  rfl

theorem act2 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v37 (F := Ideal) x0 x1 x2 x3 x4 x5 x6 x7 = activate (val_main_v36 (F := Ideal) x0 x1 x2 x3 x4 x5 x6 x7) := rfl

/-! ## Layer 3 -/

theorem agg3 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v47 (F := Ideal) x0 x1 x2 x3 x4 x5 x6 x7 = aggregate128 (sourceRow x1) (destRow x1) (val_main_v37 (F := Ideal) x0 x1 x2 x3 x4 x5 x6 x7) := rfl

theorem layer3 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x64, .f32⟩ : BufTy).Contents (Elt Ideal)) (x9 : (⟨S64, .f32⟩ : BufTy).Contents (Elt Ideal)) (x10 : (⟨S128x64, .f32⟩ : BufTy).Contents (Elt Ideal)) :
    val_main_v53 (F := Ideal) x0 x1 x2 x3 x4 x5 x6 x7 x8 x9 x10 = layerBiasMid (val_main_v47 (F := Ideal) x0 x1 x2 x3 x4 x5 x6 x7) (val_main_v37 (F := Ideal) x0 x1 x2 x3 x4 x5 x6 x7) x8 x10 x9 := by
  funext i
  rw [val_main_v53_apply, val_main_v51_apply, val_main_v48_apply, val_main_v50_apply, val_main_v49_apply, val_main_v52_apply]
  unfold layerBiasMid
  simp only [Ideal.addf_def]
  refine congrArg₂ (· + ·) (congrArg₂ (· + ·) (Finset.sum_congr rfl fun k _ => ?_) ?_) (Finset.sum_congr rfl fun k _ => ?_)
  · exact congrArg₂ (· * ·) (congrArg _ (idx2_eq _ (i 0) k rfl rfl)) (congrArg _ (idx2_eq _ k (i 1) rfl rfl))
  · exact congrArg _ (idx1_eq _ (i 1) rfl)
  · exact congrArg₂ (· * ·) (congrArg _ (idx2_eq _ (i 0) k rfl rfl)) (congrArg _ (idx2_eq _ k (i 1) rfl rfl))

/-- THE REFERENCE'S RESULT is the kernel program's `output` of the same eleven arrays. -/
theorem ref_output (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x64, .f32⟩ : BufTy).Contents (Elt Ideal)) (x9 : (⟨S64, .f32⟩ : BufTy).Contents (Elt Ideal)) (x10 : (⟨S128x64, .f32⟩ : BufTy).Contents (Elt Ideal)) :
    val_main_v53 (F := Ideal) x0 x1 x2 x3 x4 x5 x6 x7 x8 x9 x10 = output x0 x1 x2 x3 x4 x5 x6 x7 x8 x9 x10 := by
  rw [layer3, layerBiasMid_eq, agg3, act2, ref_hidden2, ← biasRow64_eq]
  rfl

end Cert.ReferenceIdeal.Net

end
-- ==== Proof.lean ====
/-
  The certificate of a three-layer graph convolution: a kernel program against its host reference.

  Each layer maps node features h (100000 nodes) to  agg(h)·W_rel + h·W_root + bias,  where agg(h) adds, for every
  node, the features of the source nodes of the edges that end there. Both programs compute agg on the host by
  the same gather and scatter-add, and apply the same activation after the first two layers. They differ in the
  dense part: the kernel program runs it as a kernel launch over ten blocks of 10000 rows, forming
  (agg·W_rel + h·W_root) + bias with operands passed through a narrower float format; the reference forms
  (agg·W_rel + bias) + h·W_root on the host.

  At the ideal values a change of float format is the identity and both matrix products are plain sums, the blocks
  tile the rows, and the two groupings of the three summands agree because extended-real addition is commutative
  and associative (no finiteness of the inputs is used). So both programs end with the same result array, one
  function of the eleven arguments:

    * Spec            the layer as a function of whole arrays, in both groupings, and their equality;
    * LibMatmulSum    a matrix product read at an entry is the sum over k;
    * Layer0/1/2      each launch's output array is the layer of its input arrays;
    * KernelRun       the kernel program's run, its result read off the last boundary's contents;
    * HostFns, HostKeep, HostChain0/1/2   the host operations named, and the contents followed through the program;
    * Reference       the reference's result is the same term.

  The three frame claims are the generated frames (the reference's: its generated run with the result dropped);
  the idealization rewrote no operation, so there is nothing to preserve.
-/
import proofs.«135042_j14328010899631_1_alg».proof.Defs
import proofs.«135042_j14328010899631_1_alg».proof.Proof.Gen.Kernel
import proofs.«135042_j14328010899631_1_alg».proof.Proof.Gen.Kernel.Skeleton
import proofs.«135042_j14328010899631_1_alg».proof.Proof.Gen.Kernel.Launch
import proofs.«135042_j14328010899631_1_alg».proof.Proof.Gen.Kernel.Points
import proofs.«135042_j14328010899631_1_alg».proof.Proof.Gen.Kernel.Frame
import proofs.«135042_j14328010899631_1_alg».proof.Proof.Gen.KernelIdeal
import proofs.«135042_j14328010899631_1_alg».proof.Proof.Gen.KernelIdeal.Skeleton
import proofs.«135042_j14328010899631_1_alg».proof.Proof.Gen.KernelIdeal.Launch
import proofs.«135042_j14328010899631_1_alg».proof.Proof.Gen.KernelIdeal.Points
import proofs.«135042_j14328010899631_1_alg».proof.Proof.Gen.KernelIdeal.Frame
import proofs.«135042_j14328010899631_1_alg».proof.Proof.Gen.ReferenceIdeal
import proofs.«135042_j14328010899631_1_alg».proof.Proof.Gen.Pre_finite_inputs
import proofs.«135042_j14328010899631_1_alg».proof.Proof.Gen.ReferenceIdeal.Run
import proofs.«135042_j14328010899631_1_alg».proof.Proof.Gen.ReferenceIdeal.Read
import proofs.«135042_j14328010899631_1_alg».proof.Proof.KernelRun
import proofs.«135042_j14328010899631_1_alg».proof.Proof.HostChain2
import proofs.«135042_j14328010899631_1_alg».proof.Proof.Reference
import Idealize.ShloMosaic.Adequacy
import Idealize.ShloMosaic.Init

noncomputable section

namespace Cert.Proof

open Idealize.ShloMosaic Idealize.SL.Sem

/-- The kernel program, as printed, runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the idealized reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the result array at the third
    layer's value of those arguments. -/
theorem algebraic : Cert.algebraic_KernelIdeal_ReferenceIdeal := by
  intro m ρ m' ρ' _ hagree
  refine ⟨fun c => Cert.KernelIdeal.Net.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Net.out_at_8 m ρ c), (h c).2⟩)
      (Cert.KernelIdeal.Net.run_out (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v53_eq, Cert.ReferenceIdeal.Net.ref_output,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
